-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S8192x64 .f32 .bf16
  ∧ IdealRules.truncf_extf.Statement Cert.KernelIdeal.S64x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x64 : Shape := ⟨3, ![32, 8192, 64]⟩
abbrev S32x64x64 : Shape := ⟨3, ![32, 64, 64]⟩
abbrev S_ : Shape := ⟨0, ![]⟩

class Facts : Prop where
  bcast_S_S32x8192x64 : S_.BroadcastsInDim S32x8192x64 (![] : Fin 0 → Fin S32x8192x64.rank)
  reducesTo_S32x8192x64_S_d0_1_2 : S32x8192x64.ReducesTo [0, 1, 2] S_
  h_S_ : 0 < S_.numel
  bcast_S_S32x64x64 : S_.BroadcastsInDim S32x64x64 (![] : Fin 0 → Fin S32x64x64.rank)
  reducesTo_S32x64x64_S_d0_1_2 : S32x64x64.ReducesTo [0, 1, 2] S_

variable [Facts]

def fn {F : FTy → Type} [FloatOps F] (main_arg0 : FVec F S32x8192x64 .f32) (main_arg1 : FVec F S32x64x64 .f32) : IVec S_ 1 :=
  let main_v0 : FVec F S32x8192x64 .f32 := Host.absf main_arg0
  let main_cst : FVec F S_ .f32 := constant S_ .f32 0x7F800000#32
  let main_v1 : FVec F S32x8192x64 .f32 := broadcastInDim S32x8192x64 ![] bcast_S_S32x8192x64 main_cst
  let main_v2 : IVec S32x8192x64 1 := cmpf .olt main_v0 main_v1
  let main_c : IVec S_ 1 := constantI S_ 1 1#1
  let main_v3 : IVec S_ 1 := (fun x v => Host.reduce IntOp.andi x v reducesTo_S32x8192x64_S_d0_1_2 h_S_) main_v2 main_c
  let main_v4 : FVec F S32x64x64 .f32 := Host.absf main_arg1
  let main_cst_0 : FVec F S_ .f32 := constant S_ .f32 0x7F800000#32
  let main_v5 : FVec F S32x64x64 .f32 := broadcastInDim S32x64x64 ![] bcast_S_S32x64x64 main_cst_0
  let main_v6 : IVec S32x64x64 1 := cmpf .olt main_v4 main_v5
  let main_c_1 : IVec S_ 1 := constantI S_ 1 1#1
  let main_v7 : IVec S_ 1 := (fun x v => Host.reduce IntOp.andi x v reducesTo_S32x64x64_S_d0_1_2 h_S_) main_v6 main_c_1
  let main_v8 : IVec S_ 1 := andi main_v3 main_v7
  main_v8
-- ==== Kernel.lean ====
abbrev S32x8192x64 : Shape := ⟨3, ![32, 8192, 64]⟩
abbrev S32x64x64 : Shape := ⟨3, ![32, 64, 64]⟩
abbrev S32x1x128 : Shape := ⟨3, ![32, 1, 128]⟩
abbrev S1x8192x64 : Shape := ⟨3, ![1, 8192, 64]⟩
abbrev S1x64x64 : Shape := ⟨3, ![1, 64, 64]⟩
abbrev S1x1x128 : Shape := ⟨3, ![1, 1, 128]⟩
abbrev S8192x64 : Shape := ⟨2, ![8192, 64]⟩
abbrev S64x64 : Shape := ⟨2, ![64, 64]⟩
abbrev S1 : Shape := ⟨1, ![1]⟩
abbrev S1x1x1 : Shape := ⟨3, ![1, 1, 1]⟩
abbrev S1x128 : Shape := ⟨2, ![1, 128]⟩
abbrev S32x1x1 : Shape := ⟨3, ![32, 1, 1]⟩
abbrev S32 : Shape := ⟨1, ![32]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S32x8192x64, .f32⟩
  | .hbm, ⟨1, _⟩ => ⟨S32x64x64, .f32⟩
  | .hbm, ⟨2, _⟩ => ⟨S32x1x128, .f32⟩
  | .hbm, ⟨3, _⟩ => ⟨S32x1x1, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S_, .f32⟩
  | .local _ .vmem, ⟨0, _⟩ => ⟨S1x8192x64, .f32⟩
  | .local _ .vmem, ⟨1, _⟩ => ⟨S1x8192x64, .f32⟩
  | .local _ .vmem, ⟨2, _⟩ => ⟨S1x64x64, .f32⟩
  | .local _ .vmem, ⟨3, _⟩ => ⟨S1x64x64, .f32⟩
  | .local _ .vmem, ⟨4, _⟩ => ⟨S1x1x128, .f32⟩
  | .local _ .vmem, ⟨5, _⟩ => ⟨S1x1x128, .f32⟩
  | _, _ => ⟨S32x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  bitsLt_bf16_f32 : FTy.bits .bf16 < FTy.bits .f32
  shapeCasts_S8192x64_S1x8192x64 : S8192x64.ShapeCasts S1x8192x64
  reduces_S1x8192x64_S1 : S1x8192x64.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S32x1x128_S32x1x1_0_0_0 : S32x1x128.Slices ![0, 0, 0] S32x1x1
  shapeCasts_S32x1x1_S32 : S32x1x1.ShapeCasts S32
  bcast_S_S32 : S_.BroadcastsInDim S32 (![] : Fin 0 → Fin S32.rank)
  reducesTo_S32_S_d0 : S32.ReducesTo [0] S_
  h_S_ : 0 < S_.numel
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x64.size a ≤ S32x8192x64.size a
  hwx0_0 : ∀ i : grid0.Coords, EltTy.bits .f32 = 32 ∨ (Rect.block (s := S32x8192x64) S1x8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S32x64x64.size a
  hwx0_1 : ∀ i : grid0.Coords, EltTy.bits .f32 = 32 ∨ (Rect.block (s := S32x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S32x1x128.size a
  hwx0_2 : ∀ i : grid0.Coords, EltTy.bits .f32 = 32 ∨ (Rect.block (s := S32x1x128) S1x1x128.size (cc0_transform_2 i) (hinb0_2 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S1x8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x8192x64 : Shape := ⟨3, ![32, 8192, 64]⟩
abbrev S32x64x64 : Shape := ⟨3, ![32, 64, 64]⟩
abbrev S_ : Shape := ⟨0, ![]⟩
abbrev S32 : Shape := ⟨1, ![32]⟩

abbrev nBuf : Space → Nat
  | .hbm => 13
  | .vmem => 0
  | .smem => 0
  | _ => 0

abbrev bufTy : (tb : Table) → Fin (tcTables nBuf tb) → BufTy
  | .hbm, ⟨0, _⟩ => ⟨S32x8192x64, .f32⟩
  | .hbm, ⟨1, _⟩ => ⟨S32x64x64, .f32⟩
  | .hbm, ⟨2, _⟩ => ⟨S32x8192x64, .f32⟩
  | .hbm, ⟨3, _⟩ => ⟨S_, .f32⟩
  | .hbm, ⟨4, _⟩ => ⟨S32x8192x64, .f32⟩
  | .hbm, ⟨5, _⟩ => ⟨S32x8192x64, .f32⟩
  | .hbm, ⟨6, _⟩ => ⟨S_, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S_, .f32⟩
  | _, _ => ⟨S32x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  bcast_S_S32x8192x64 : S_.BroadcastsInDim S32x8192x64 (![] : Fin 0 → Fin S32x8192x64.rank)
  reducesTo_S32x8192x64_S32_d1_2 : S32x8192x64.ReducesTo [1, 2] S32
  h_S_ : 0 < S_.numel
  bcast_S_S32 : S_.BroadcastsInDim S32 (![] : Fin 0 → Fin S32.rank)
  reducesTo_S32_S_d0 : S32.ReducesTo [0] S_
  dot_S32x8192x64_S32x64x64_S32x8192x64_2_1_1_2_0_0_wf : DotDims.WF S32x8192x64 S32x64x64 S32x8192x64 [2] [1] [1] [2] [0] [0]

variable [Facts₀]

def dot_S32x8192x64_S32x64x64_S32x8192x64_2_1_1_2_0_0 : DotDims S32x8192x64 S32x64x64 S32x8192x64 where
  lhsContracting := [2]
  rhsContracting := [1]
  lhsNonContracting := [1]
  rhsNonContracting := [2]
  lhsBatch := [0]
  rhsBatch := [0]
  wf := dot_S32x8192x64_S32x64x64_S32x8192x64_2_1_1_2_0_0_wf

class Facts : Prop extends Facts₀ where

variable [Facts]
-- ==== Proof.Finite.lean ====
/-
  From the precondition to "every entry of both inputs is a real number".

  The precondition is `all(|x| < +∞) and all(|y| < +∞)`: a conjunction of two reductions by `and`, each over
  every entry of an array of comparisons. If the conjunction is 1, both reductions are 1, so every comparison
  is 1; and on the extended reals `max a (-a) < ⊤` excludes `a = ⊤` and `a = ⊥`, which leaves the reals.
-/
import proofs.«177610_j1580547969507_2_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic

/-- An extended real whose absolute value is below `+∞` (the word `0x7F800000`) is a real number. -/
theorem real_of_abs_lt_inf (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- The result of the precondition has one index. -/
instance : Subsingleton Cert.Pre_finite_inputs.S_.Idx := ⟨fun _ _ => funext fun d => d.elim0⟩

/-- Under the precondition every entry of `x` and every entry of `y` is a real number. -/
theorem real_of_pre [Cert.Pre_finite_inputs.Facts]
    (x : FVec Ideal Cert.Pre_finite_inputs.S32x8192x64 .f32) (y : FVec Ideal Cert.Pre_finite_inputs.S32x64x64 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.1 h0
  exact ⟨fun i => real_of_abs_lt_inf (x i) (Host.reduce_andi_all _ _ _ _ _ hx i),
    fun i => real_of_abs_lt_inf (y i) (Host.reduce_andi_all _ _ _ _ _ hy i)⟩

end Cert.FiniteInputs

end
-- ==== Proof.Spec.lean ====
/-
  The value both programs compute, as one function of the two argument arrays on the extended reals.

  For a batch `b` the product matrix has entries `P b l h = ∑ f, x (b, l, f) * y (b, f, h)`; its positive
  part is `max (P b l h) 0`; the batch's number is the sum of the positive parts over every row `l` and
  column `h`. Both programs divide the thirty-two numbers by the same constant and take their maximum,
  so only the thirty-two sums have to be shown equal.

  The kernel does not compute `P` in one product but in three: with `x' = x - x` and `y' = y - y` (what
  is left after a change of float format that is exact here) it adds `x·y`, `x·y'` and `x'·y`. For REAL
  entries `x' = 0` and `y' = 0`, so the two extra products vanish term by term. At an infinite entry
  `x - x` is not zero, which is why the inputs are taken finite.
-/
import Idealize.ShloMosaic.PureOps.Ideal
import Idealize.ShloMosaic.Lib.ValueIdx

noncomputable section

namespace Cert.Spec

open Idealize.ShloMosaic Idealize.ShloMosaic.ValueIdx

/-- The shape of `x`: batch, row, inner index. -/
abbrev SX : Shape := ⟨3, ![32, 8192, 64]⟩
/-- The shape of `y`: batch, inner index, column. -/
abbrev SY : Shape := ⟨3, ![32, 64, 64]⟩
/-- One batch's (row, column) pairs, under a leading axis of extent one. -/
abbrev SP : Shape := ⟨3, ![1, 8192, 64]⟩

/-- Entry (l, h) of the product of batch `b`'s two matrices. -/
def prodAt (x : SX.Idx → EReal) (y : SY.Idx → EReal) (b : Fin 32) (l : Fin 8192) (h : Fin 64) : EReal :=
  ∑ k : Fin 64, x (ix3 b l k) * y (ix3 b k h)

/-- Batch `b`'s sum, over all its (row, column) pairs, of the positive parts of the product's entries. -/
def reluSum (x : SX.Idx → EReal) (y : SY.Idx → EReal) (b : Fin 32) : EReal :=
  ∑ i : SP.Idx, max (prodAt x y b (i 1) (i 2)) 0

/-- A real number minus itself is zero on the extended reals (an infinity minus itself is not). -/
theorem coe_sub_self (r : ℝ) : (r : EReal) - (r : EReal) = 0 := by
  rw [← EReal.coe_sub, sub_self, EReal.coe_zero]

/-- So an entry known to be real cancels against itself. -/
theorem sub_self_of_real {a : EReal} (h : ∃ r : ℝ, a = (r : EReal)) : a - a = 0 := by
  obtain ⟨r, rfl⟩ := h
  exact coe_sub_self r

/-- A sum of products whose right factors are all zero is zero. -/
theorem sum_mul_zero {ι : Type} [Fintype ι] (a b : ι → EReal) (hb : ∀ k, b k = 0) : ∑ k, a k * b k = 0 :=
  Finset.sum_eq_zero fun k _ => by rw [hb k, mul_zero]

/-- A sum of products whose left factors are all zero is zero. -/
theorem sum_zero_mul {ι : Type} [Fintype ι] (a b : ι → EReal) (ha : ∀ k, a k = 0) : ∑ k, a k * b k = 0 :=
  Finset.sum_eq_zero fun k _ => by rw [ha k, zero_mul]

/-- The three products added up are the first one, once the other two are zero. -/
theorem three_pass (A B C : EReal) (hB : B = 0) (hC : C = 0) : A + B + C = A := by
  rw [hB, hC, add_zero, add_zero]

end Cert.Spec

end
-- ==== Proof.KernelPay.lean ====
/-
  What the kernel's body stores, read at an index.

  The body loads one batch's two matrices, forms the product in three passes (see Spec.lean), takes the
  positive part of every entry, adds up ALL the entries of the result, and writes that one number into
  every lane of its output block. So at any index of the block the stored value is the batch's sum of
  positive parts — provided the loaded entries are real, which is what makes the two extra passes vanish.
-/
import proofs.«177610_j1580547969507_2_alg».proof.Proof.Gen.KernelIdeal.Skeleton
import proofs.«177610_j1580547969507_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayValue

open Cert.KernelIdeal Cert.KernelIdeal.Gen Idealize.ShloMosaic Idealize.ShloMosaic.ValueIdx Cert.Spec

/-- The matrix product's dimension record: rows × inner index times inner index × columns. -/
abbrev D := dot_S8192x64_S64x64_S8192x64_1_0_0_1_n_n

/-- The three passes at an entry: with real operands the passes against `b - b` and `a - a` are sums of
    products with a zero factor, so what is left is the plain sum of products. -/
theorem threePass_apply (a : FVec Ideal S8192x64 .f32) (b : FVec Ideal S64x64 .f32)
    (ha : ∀ i, ∃ r : ℝ, a i = (r : EReal)) (hb : ∀ i, ∃ r : ℝ, b i = (r : EReal)) (j : S8192x64.Idx) :
    addf (addf (matmul D none (truncf .bf16 a bitsLt_bf16_f32) (truncf .bf16 b bitsLt_bf16_f32) (constant S8192x64 .f32 0x00000000#32))
               (matmul D none (truncf .bf16 a bitsLt_bf16_f32) (truncf .bf16 (subf b b) bitsLt_bf16_f32) (constant S8192x64 .f32 0x00000000#32)))
         (matmul D none (truncf .bf16 (subf a a) bitsLt_bf16_f32) (truncf .bf16 b bitsLt_bf16_f32) (constant S8192x64 .f32 0x00000000#32)) j
      = ∑ k : D.contr.Idx, a (D.lhsIdx j k) * b (D.rhsIdx j k) := by
  rw [addf_apply, addf_apply]
  simp only [matmul]
  rw [Ideal.matmul_constant_zero_apply, Ideal.matmul_constant_zero_apply, Ideal.matmul_constant_zero_apply]
  exact three_pass _ _ _ (sum_mul_zero _ _ fun k => sub_self_of_real (hb _)) (sum_zero_mul _ _ fun k => sub_self_of_real (ha _))

/-! ## The product's operand indices by coordinates

The product record has no batch axis: the left operand is read at (row, inner index), the right one at
(inner index, column). -/

theorem lhs_0 (j : S8192x64.Idx) (q : D.contr.Idx) : (D.lhsIdx j q 0).val = (j 0).val := by
  unfold DotDims.lhsIdx
  rw [dif_neg (show ¬(0 : Fin S8192x64.rank) ∈ dot_S8192x64_S64x64_S8192x64_1_0_0_1_n_n.lhsBatch by decide),
    dif_pos (show (0 : Fin S8192x64.rank) ∈ dot_S8192x64_S64x64_S8192x64_1_0_0_1_n_n.lhsNonContracting by decide)]
  rfl
theorem lhs_1 (j : S8192x64.Idx) (q : D.contr.Idx) : (D.lhsIdx j q 1).val = (q ⟨0, by decide⟩).val :=
  dot_S8192x64_S64x64_S8192x64_1_0_0_1_n_n.lhsIdx_val_of_single rfl j q
theorem rhs_0 (j : S8192x64.Idx) (q : D.contr.Idx) : (D.rhsIdx j q 0).val = (q ⟨0, by decide⟩).val :=
  dot_S8192x64_S64x64_S8192x64_1_0_0_1_n_n.rhsIdx_val_of_single rfl j q
theorem rhs_1 (j : S8192x64.Idx) (q : D.contr.Idx) : (D.rhsIdx j q 1).val = (j 1).val := by
  unfold DotDims.rhsIdx
  rw [dif_neg (show ¬(1 : Fin S64x64.rank) ∈ dot_S8192x64_S64x64_S8192x64_1_0_0_1_n_n.rhsBatch by decide),
    dif_pos (show (1 : Fin S64x64.rank) ∈ dot_S8192x64_S64x64_S8192x64_1_0_0_1_n_n.rhsNonContracting by decide)]
  rfl

/-- The sum over the record's contraction index is the sum over the sixty-four inner indices, the operands read at
    (l, k) and (k, h). -/
theorem contr_sum (a : FVec Ideal S8192x64 .f32) (b : FVec Ideal S64x64 .f32) (l : Fin 8192) (h : Fin 64) :
    ∑ k : D.contr.Idx, a (D.lhsIdx (ix2 l h) k) * b (D.rhsIdx (ix2 l h) k) = ∑ k : Fin 64, a (ix2 l k) * b (ix2 k h) := by
  rw [← Equiv.sum_comp (ValueIdx.contrEquiv1 dot_S8192x64_S64x64_S8192x64_1_0_0_1_n_n 64 rfl rfl).symm]
  refine Finset.sum_congr rfl fun k _ => ?_
  have hk := ValueIdx.contrEquiv1_symm_val dot_S8192x64_S64x64_S8192x64_1_0_0_1_n_n 64 rfl rfl k
  have el : D.lhsIdx (ix2 l h) ((ValueIdx.contrEquiv1 dot_S8192x64_S64x64_S8192x64_1_0_0_1_n_n 64 rfl rfl).symm k) = ix2 l k :=
    funext fun d => Fin.ext (by
      match d with
      | ⟨0, _⟩ => exact lhs_0 _ _
      | ⟨1, _⟩ => exact (lhs_1 _ _).trans hk)
  have er : D.rhsIdx (ix2 l h) ((ValueIdx.contrEquiv1 dot_S8192x64_S64x64_S8192x64_1_0_0_1_n_n 64 rfl rfl).symm k) = ix2 k h :=
    funext fun d => Fin.ext (by
      match d with
      | ⟨0, _⟩ => exact (rhs_0 _ _).trans hk
      | ⟨1, _⟩ => exact rhs_1 _ _)
  rw [el, er]

/-- The loaded blocks carry a leading axis of extent one; dropping it keeps every entry, so real blocks stay real. -/
theorem real_cast {s t : Shape} (x : s.Idx → EReal) (hc : s.ShapeCasts t) (hx : ∀ i, ∃ r : ℝ, x i = (r : EReal)) :
    ∀ j, ∃ r : ℝ, shapeCast t x hc j = (r : EReal) := fun j => hx _

/-- The reduction over both axes has one entry, the sum of every entry of its operand; the casts, the extraction
    and the splat after it only re-index, so at every index of the block they read that one entry. -/
theorem total_sum (src : FVec Ideal S1x8192x64 .f32) (hφ : FKind.Formats .f32)
    (hacc : (0x00000000#32 : BitVec 32) = FKind.add.neutral .f32 hφ) (y : S1x1x128.Idx) :
    shapeCast S1x1x128 (broadcast S1x128 (extractAt ![0, 0, 0]
        (shapeCast S1x1x1 (multiReduction .add [1, 2] S1 src 0x00000000#32 reduces_S1x8192x64_S1 hφ hacc) shapeCasts_S1_S1x1x1)
        inpos_S1x1x1_p0_0_0)) shapeCasts_S1x128_S1x1x128 y = ∑ i : S1x8192x64.Idx, src i :=
  Ideal.multiReduction_add_total src _ reduces_S1x8192x64_S1 (by decide) hφ hacc _

/-- WHAT THE BODY STORES, at any index of its output block: the sum over every (row, column) of the positive part
    of the product's entry — the one number the body spreads over all lanes. -/
theorem pay_apply (x0 : Vec Ideal S1x8192x64 .f32) (x1 : Vec Ideal S1x64x64 .f32)
    (h0 : ∀ i, ∃ r : ℝ, x0 i = (r : EReal)) (h1 : ∀ i, ∃ r : ℝ, x1 i = (r : EReal)) (y : S1x1x128.Idx) :
    k0_pay1 (F := Ideal) x0 x1 y
      = ∑ i : S1x8192x64.Idx, max (∑ k : Fin 64, x0 (ix3 (0 : Fin 1) (i 1) k) * x1 (ix3 (0 : Fin 1) k (i 2))) 0 := by
  unfold k0_pay1
  dsimp only
  refine (total_sum _ _ _ y).trans ?_
  refine Finset.sum_congr rfl fun i _ => ?_
  obtain ⟨u, l, h, rfl⟩ : ∃ (u : Fin 1) (l : Fin 8192) (h : Fin 64), i = ix3 u l h := ⟨i 0, i 1, i 2, eq_ix3 i⟩
  rw [shapeCast_ab_1ab_apply, maximumf_apply, broadcast_apply,
    threePass_apply _ _ (real_cast _ _ h0) (real_cast _ _ h1), contr_sum]
  show max _ (Ideal.ofBits .f32 0x00000000#32) = max (∑ k : Fin 64, x0 (ix3 (0 : Fin 1) l k) * x1 (ix3 (0 : Fin 1) k h)) 0
  rw [Ideal.ofBits_zero_f32]
  simp only [shapeCast_1ab_ab_apply]

end Cert.KernelIdeal.PayValue

end
-- ==== Proof.KernelValue.lean ====
/-
  The kernel's output array after the region, and the program's result after the host lines that follow.

  The grid has one point per batch. At point `t` the two input windows hand the body batch `t`'s matrices
  (blocks (t, ·, ·) of `x` and `y`), and the output window's block is row `t` of the [32, 1, 128] result:
  128 lanes, every one holding the batch's sum of positive parts. The 32 blocks tile the result, so after
  the region entry (b, 0, j) of the result is batch `b`'s sum, for every lane `j`.

  The host lines then take lane 0 of every row (a slice and a reshape), divide by a constant and take the
  maximum. The same division and maximum close the reference, so they are carried as one function and
  never opened.
-/
import proofs.«177610_j1580547969507_2_alg».proof.Proof.Gen.KernelIdeal.Frame
import proofs.«177610_j1580547969507_2_alg».proof.Proof.KernelPay
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.PayValue
open Idealize.ShloMosaic Idealize.ShloMosaic.TcCoe Idealize.SL.Sem Idealize.ShloMosaic.ValueIdx Cert.Spec
open Idealize.ShloMosaic.Pipeline (Dat Cfg Window)

variable (m : (ℓ : Loc nD τ sig) → Buf (Elt Ideal) ℓ) (ρ : Dev nD → PrngReg)

/-- Every block starts at offset zero of its staging buffer. -/
theorem hz : (![0, 0, 0] : Fin 3 → Nat) = fun _ => 0 := funext fun a => by fin_cases a <;> rfl

/-- The result array after the region, as a function of the two arguments: entry (b, 0, j) is batch `b`'s sum. -/
abbrev Gout (x : S32x8192x64.Idx → EReal) (y : S32x64x64.Idx → EReal) : S32x1x128.Idx → EReal :=
  fun i => reluSum x y (i 0)

/-- The three windows' block index maps over the grid: point `t` is block (t, 0, 0) of each. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- A grid point as a batch number. -/
def batchOf (t : Fin cfg0.N) : Fin 32 := ⟨t.val, by have := t.isLt; have h : cfg0.N = 32 := N_0; omega⟩

/-- Point `t`'s block of `x` is batch `t`'s matrix. -/
theorem blk0_read (c : Dev nD) (t : Fin cfg0.N) (l : Fin 8192) (k : Fin 64) :
    iblk m c 0 t (ix3 (0 : Fin 1) l k) = V m c main_arg0 (ix3 (batchOf t) l k) := by
  show V m c main_arg0 (((cfg0.win 0).blk t).view.emb (ix3 (0 : Fin 1) l k)) = V m c main_arg0 (ix3 (batchOf t) l k)
  refine congrArg _ (funext fun a => Fin.ext ?_)
  obtain ⟨e0, e1, e2, -⟩ := idx_facts t
  match a with
  | ⟨0, _⟩ => show win0_0.index t (0 : Fin 3) * 1 + 1 * 0 = t.val; omega
  | ⟨1, _⟩ => show win0_0.index t (1 : Fin 3) * 8192 + 1 * l.val = l.val; omega
  | ⟨2, _⟩ => show win0_0.index t (2 : Fin 3) * 64 + 1 * k.val = k.val; omega

/-- Point `t`'s block of `y` is batch `t`'s matrix. -/
theorem blk1_read (c : Dev nD) (t : Fin cfg0.N) (k : Fin 64) (h : Fin 64) :
    iblk m c 1 t (ix3 (0 : Fin 1) k h) = V m c main_arg1 (ix3 (batchOf t) k h) := by
  show V m c main_arg1 (((cfg0.win 1).blk t).view.emb (ix3 (0 : Fin 1) k h)) = V m c main_arg1 (ix3 (batchOf t) k h)
  refine congrArg _ (funext fun a => Fin.ext ?_)
  obtain ⟨-, -, -, e0, e1, e2, -⟩ := idx_facts t
  match a with
  | ⟨0, _⟩ => show win0_1.index t (0 : Fin 3) * 1 + 1 * 0 = t.val; omega
  | ⟨1, _⟩ => show win0_1.index t (1 : Fin 3) * 64 + 1 * k.val = k.val; omega
  | ⟨2, _⟩ => show win0_1.index t (2 : Fin 3) * 64 + 1 * h.val = h.val; omega

/-- Two blocks that are batch `b`'s matrices of the arrays `X` and `Y` give batch `b`'s sum. -/
theorem blockSum_eq (x0 : Vec Ideal S1x8192x64 .f32) (x1 : Vec Ideal S1x64x64 .f32)
    (X : S32x8192x64.Idx → EReal) (Y : S32x64x64.Idx → EReal) (b : Fin 32)
    (e0 : ∀ (l : Fin 8192) (k : Fin 64), x0 (ix3 (0 : Fin 1) l k) = X (ix3 b l k))
    (e1 : ∀ (k : Fin 64) (h : Fin 64), x1 (ix3 (0 : Fin 1) k h) = Y (ix3 b k h)) :
    (∑ i : S1x8192x64.Idx, max (∑ k : Fin 64, x0 (ix3 (0 : Fin 1) (i 1) k) * x1 (ix3 (0 : Fin 1) k (i 2))) 0)
      = reluSum X Y b :=
  Finset.sum_congr rfl fun i _ => congrArg (fun z => max z 0)
    (Finset.sum_congr rfl fun k _ => congrArg₂ (· * ·) (e0 (i 1) k) (e1 k (i 2)))

-- From here on only the thirty-two numbers matter, not how each is computed: the sum is carried as a name.
attribute [local irreducible] Cert.Spec.reluSum

/-- Every index of point `t`'s output block lies in row `t` of the result. -/
theorem out_row (t : Fin cfg0.N) (y : S1x1x128.Idx) : ((((cfg0.win 2).blk t).view.emb y) 0).val = (batchOf t).val := by
  obtain ⟨-, -, -, -, -, -, e0, -, -⟩ := idx_facts t
  show win0_2.index t (0 : Fin 3) * 1 + 1 * (y 0).val = t.val
  have hy0 : (y 0).val < 1 := (y 0).isLt
  omega

/-- An array whose entry (b, 0, j) is `g b`, read through point `t`'s output block, gives `g t` at every index of
    the block. (Stated for any `g`: nothing here depends on what the thirty-two numbers are.) -/
theorem read_rows (G : S32x1x128.Idx → EReal) (g : Fin 32 → EReal) (hG : ∀ i, G i = g (i 0)) (t : Fin cfg0.N)
    (y : S1x1x128.Idx) : ((cfg0.win 2).blk t).view.read (Elt Ideal) G y = g (batchOf t) := by
  show G (((cfg0.win 2).blk t).view.emb y) = g (batchOf t)
  rw [hG]
  exact congrArg g (Fin.ext (out_row t y))

/-- Lane 0 of every row of such an array, as a vector of thirty-two numbers (a slice, then a reshape), is `g`. -/
theorem lane0 (G : S32x1x128.Idx → EReal) (g : Fin 32 → EReal) (hG : ∀ i, G i = g (i 0)) (j : S32.Idx) :
    shapeCast S32 (extractStridedSlice S32x1x1 ![0, 0, 0] G slices_S32x1x128_S32x1x1_0_0_0) shapeCasts_S32x1x1_S32 j
      = g (j 0) := by
  refine (shapeCast_apply _ _ j (ix3 (n0 := 32) (n1 := 1) (n2 := 1) (j 0) 0 0) ?_).trans ?_
  · rw [Shape.rowMajor_val_three, Shape.rowMajor_val_one]
    show ((j 0).val * 1 + 0) * 1 + 0 = (j 0).val
    omega
  · refine (extractStridedSlice_apply _ _ _ _ (ix3 (n0 := 32) (n1 := 1) (n2 := 128) (j 0) 0 0) (fun a => ?_)).trans (hG _)
    match a with
    | ⟨0, _⟩ => show (j 0).val = 0 + (j 0).val; omega
    | ⟨1, _⟩ => rfl
    | ⟨2, _⟩ => rfl

/-- WHAT POINT `t` WRITES BACK is block `t` of `Gout` of the argument arrays, when these hold real numbers. -/
theorem flushed_eq (c : Dev nD) (hx : ∀ i, ∃ r : ℝ, V m c main_arg0 i = (r : EReal))
    (hy : ∀ i, ∃ r : ℝ, V m c main_arg1 i = (r : EReal)) (t : Fin cfg0.N) :
    (dats m 0 c).flushed 2 t = ((cfg0.win 2).blk t).view.read (Elt Ideal) (Gout (V m c main_arg0) (V m c main_arg1)) := by
  show (cfg0.win 2).cut (grid0.coords t) ((dats m 0 c).after 2 t) = _
  rw [after0_2]
  unfold out0_2
  rw [View.canon_unit_zero hz]
  simp only [View.ld_unit_zero (S := S1x8192x64) hz, View.ld_unit_zero (S := S1x64x64) hz]
  funext y
  have hb0 : ∀ i, ∃ r : ℝ, iblk m c 0 t i = (r : EReal) := fun i => hx _
  have hb1 : ∀ i, ∃ r : ℝ, iblk m c 1 t i = (r : EReal) := fun i => hy _
  refine (pay_apply (iblk m c 0 t) (iblk m c 1 t) hb0 hb1 y).trans ?_
  -- the blocks' entries are batch `t`'s entries of the arrays, so the sum is batch `t`'s
  refine (blockSum_eq (iblk m c 0 t) (iblk m c 1 t) (V m c main_arg0) (V m c main_arg1) (batchOf t)
    (blk0_read m c t) (blk1_read m c t)).trans ?_
  -- and every index of the output block lies in row `t` of the result
  exact (read_rows (Gout (V m c main_arg0) (V m c main_arg1)) (reluSum (V m c main_arg0) (V m c main_arg1))
    (fun _ => rfl) t y).symm

/-- An index of the result is in point `t`'s block iff each coordinate is in the block's range on its axis. -/
theorem mem_blk (t : Fin cfg0.N) (i : S32x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v0).slice (win0_2.rect t)).set ↔ _
  rw [View.set_slice_whole, Rect.mem_set_unit]
  exact Iff.rfl

/-- The thirty-two blocks tile the result: index (b, 0, j) is in point `b`'s block. -/
theorem cover (i : S32x1x128.Idx) :
    ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 128 := (i 2).isLt
  have hN : cfg0.N = 32 := N_0
  refine ⟨⟨(i 0).val, by omega⟩, flush0_2 _, ?_⟩
  rw [mem_blk]
  obtain ⟨-, -, -, -, -, -, e0, e1, e2⟩ := idx_facts ⟨(i 0).val, by omega⟩
  intro a
  match a with
  | ⟨0, _⟩ => show win0_2.index _ (0 : Fin 3) * 1 ≤ (i 0).val ∧ (i 0).val < win0_2.index _ (0 : Fin 3) * 1 + 1; rw [e0]; show (i 0).val * 1 ≤ (i 0).val ∧ (i 0).val < (i 0).val * 1 + 1; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 128 ≤ (i 2).val ∧ (i 2).val < win0_2.index _ (2 : Fin 3) * 128 + 128; rw [e2]; omega

/-- THE RESULT ARRAY after the region: batch `b`'s sum at every (b, 0, j). -/
theorem final (c : Dev nD) (hx : ∀ i, ∃ r : ℝ, V m c main_arg0 i = (r : EReal))
    (hy : ∀ i, ∃ r : ℝ, V m c main_arg1 i = (r : EReal)) :
    (dats m 0 c).arrAt 2 cfg0.N = Gout (V m c main_arg0) (V m c main_arg1) :=
  (dats m 0 c).arrAt_eq_of_cover 2 (Gout (V m c main_arg0) (V m c main_arg1)) (fun t _ => flushed_eq m c hx hy t) cover

/-- The host lines both programs end with: each of the thirty-two sums divided by one constant, then the maximum
    of the quotients, started from −∞. -/
def tail (s : FVec Ideal S32 .f32) : FVec Ideal S_ .f32 :=
  Host.reduce FloatOps.maximumf
    (Host.divf s (broadcastInDim S32 ![] bcast_S_S32 (constant (F := Ideal) S_ .f32 0x46000000#32)))
    (constant (F := Ideal) S_ .f32 0xFF800000#32) reducesTo_S32_S_d0 h_S_

/-- The program's result after the host lines: the common tail of lane 0 of every row of the result array. -/
theorem tail_eq (c : Dev nD) (hx : ∀ i, ∃ r : ℝ, V m c main_arg0 i = (r : EReal))
    (hy : ∀ i, ∃ r : ℝ, V m c main_arg1 i = (r : EReal)) :
    Pipeline.afterTail₀ cfgs (dats m) 0 (V0 m) [hostOps1] c main_v5
      = tail (fun j => reluSum (V m c main_arg0) (V m c main_arg1) (j 0)) := by
  unfold Pipeline.afterTail₀
  show StableHlo.after hostOps1 _ (Proc.devRef .tc main_v5) = _
  after_results
  -- what is left: the common tail of lane 0 of every row of the array the region left
  refine congrArg tail (funext fun j => ?_)
  show shapeCast S32 (extractStridedSlice S32x1x1 ![0, 0, 0]
      (Pipeline.withArrays (cfgs 0).spec c (V0 m c) (fun w => (dats m 0 c).arrAt w (cfgs 0).N) (Proc.devRef .tc main_v0))
      slices_S32x1x128_S32x1x1_0_0_0) shapeCasts_S32x1x1_S32 j = _
  have hA : Pipeline.withArrays (cfgs 0).spec c (V0 m c) (fun w => (dats m 0 c).arrAt w (cfgs 0).N) (Proc.devRef .tc main_v0)
      = Gout (V m c main_arg0) (V m c main_arg1) :=
    (Pipeline.withArrays_arr spec0 launch0.win.arr_inj c _ _ 2).trans (final m c hx hy)
  rw [hA]
  exact lane0 (Gout (V m c main_arg0) (V m c main_arg1)) (reluSum (V m c main_arg0) (V m c main_arg1)) (fun _ => rfl) j

/-- THE KERNEL'S PROGRAM, RUN from a memory whose two arguments hold real numbers: every execution ends with the result at
    the common tail of the thirty-two sums of the arguments, and the arguments as they were. -/
theorem run (hfin : ∀ c : Dev nD, (∀ i, ∃ r : ℝ, V m c main_arg0 i = (r : EReal)) ∧ (∀ i, ∃ r : ℝ, V m c main_arg1 i = (r : EReal))) :
    θ_run defs (onTc (τ := τ) (main (F := Ideal))) ⟨m, fun _ => 0, ρ⟩ fun r => ∀ c : Dev nD,
      r.2.mem ((c.tc : Thread nD τ).loc main_v5)
        = tail (fun j => reluSum (m ((c.tc : Thread nD τ).loc main_arg0)) (m ((c.tc : Thread nD τ).loc main_arg1)) (j 0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v5 (Pipeline.mem_restRefs_of main_v5 rfl (by decide))).trans
      ((tail_eq m c (hfin c).1 (hfin c).2).trans (by rw [V_main_arg0, V_main_arg1])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefValue.lean ====
/-
  The reference, read at an index: its thirty-two sums are the function of Spec.lean.

  The reference multiplies the whole stacks at once (entry (b, l, h) is `∑ f, x (b, l, f) * y (b, f, h)`),
  takes the positive part of every entry, and sums over the row and column axes, keeping the batch axis.
  Its sum at batch `b` runs over the entries (b', l, h) with `b' = b`; these are in bijection with the
  (row, column) pairs of one batch, (l, h) ↦ (b, l, h), and that re-indexing is all there is to prove.
-/
import proofs.«177610_j1580547969507_2_alg».proof.Proof.Gen.ReferenceIdeal.Read
import proofs.«177610_j1580547969507_2_alg».proof.Proof.Spec
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx Cert.Spec

/-- The positive part of the stacked product at (b, l, h). -/
theorem relu_apply (x : FVec Ideal S32x8192x64 .f32) (y : FVec Ideal S32x64x64 .f32) (b : Fin 32) (l : Fin 8192) (h : Fin 64) :
    val_main_v1 (F := Ideal) x y (ix3 b l h) = max (prodAt x y b l h) 0 := by
  have el : ∀ k, lidx_main_v0 (ix3 b l h) k = ix3 b l k := fun k => funext fun a => Fin.ext (by
    match a with
    | ⟨0, _⟩ => rfl
    | ⟨1, _⟩ => rfl
    | ⟨2, _⟩ => rfl)
  have er : ∀ k, ridx_main_v0 (ix3 b l h) k = ix3 b k h := fun k => funext fun a => Fin.ext (by
    match a with
    | ⟨0, _⟩ => rfl
    | ⟨1, _⟩ => rfl
    | ⟨2, _⟩ => rfl)
  rw [val_main_v1_apply, val_main_v0_apply, val_main_call0_v0_apply, val_main_call0_cst_apply]
  show max _ (Ideal.ofBits .f32 0x00000000#32) = _
  rw [Ideal.ofBits_zero_f32]
  unfold prodAt
  simp only [el, er]

/-- The reference's sum at batch `j`: the entries that reduce to `j` are the (j, l, h), one per (row, column) pair. -/
theorem sums_apply (x : FVec Ideal S32x8192x64 .f32) (y : FVec Ideal S32x64x64 .f32) (j : S32.Idx) :
    val_main_v2 (F := Ideal) x y j = reluSum x y (j 0) := by
  unfold val_main_v2
  rw [hostReduceAdd_apply]
  unfold Ideal.hostReduceAdd
  rw [show val_main_cst (F := Ideal) (Shape.Idx.first h_S_) = 0 from Ideal.ofBits_zero_f32, zero_add]
  unfold reluSum
  have hdrop : ∀ a : S32x8192x64.Idx, reducesTo_S32x8192x64_S32_d1_2.drop a = j ↔ (a 0).val = (j 0).val := by
    intro a
    constructor
    · intro e
      have := reducesTo_S32x8192x64_S32_d1_2.drop_apply_val_of_eq a 0 0
      rw [e] at this
      exact this.symm
    · intro e
      funext d
      match d with
      | ⟨0, _⟩ => exact Fin.ext ((reducesTo_S32x8192x64_S32_d1_2.drop_apply_val_of_eq a 0 0).trans e)
  refine Finset.sum_nbij' (fun a => ix3 (n0 := 1) (n1 := 8192) (n2 := 64) 0 (a 1) (a 2))
    (fun i => ix3 (n0 := 32) (n1 := 8192) (n2 := 64) (j 0) (i 1) (i 2)) ?_ ?_ ?_ ?_ ?_
  · intro a _; exact Finset.mem_univ _
  · intro i _
    rw [Finset.mem_filter]
    exact ⟨Finset.mem_univ _, (hdrop _).2 rfl⟩
  · intro a ha
    have e := (hdrop a).1 (Finset.mem_filter.1 ha).2
    funext d
    match d with
    | ⟨0, _⟩ => exact Fin.ext e.symm
    | ⟨1, _⟩ => rfl
    | ⟨2, _⟩ => rfl
  · intro i _
    funext d
    match d with
    | ⟨0, _⟩ => exact Fin.ext (by have h1 : (i 0).val < 1 := (i 0).isLt; show 0 = (i 0).val; omega)
    | ⟨1, _⟩ => rfl
    | ⟨2, _⟩ => rfl
  · intro a ha
    have e := (hdrop a).1 (Finset.mem_filter.1 ha).2
    have ea : a = ix3 (n0 := 32) (n1 := 8192) (n2 := 64) (j 0) (a 1) (a 2) := by
      funext d
      match d with
      | ⟨0, _⟩ => exact Fin.ext e
      | ⟨1, _⟩ => rfl
      | ⟨2, _⟩ => rfl
    exact (congrArg (val_main_v1 (F := Ideal) x y) ea).trans (relu_apply x y (j 0) (a 1) (a 2))

end Cert.ReferenceIdeal.RefValue

end
-- ==== Proof.lean ====
/-
  The kernel and its reference compute one number from two stacks of thirty-two matrices, x : [32, 8192, 64] and
  y : [32, 64, 64]: with `P b = x b · y b` the product of batch `b`,

      result = max over b of ( (∑ over rows l and columns h of max (P b l h) 0) / 8192 ).

  The reference forms all thirty-two products in one batched product, takes positive parts, sums over rows and
  columns and keeps the batch axis. The kernel visits one batch per grid point; there it forms the product in three
  passes — `x·y + x·(y − y) + (x − x)·y`, what is left of a split of each operand into a rounded part and a residual
  once rounding is exact —, takes positive parts, adds up the whole matrix and writes that number into every lane
  of row `b` of a [32, 1, 128] array; host lines then read lane 0 of every row. Both programs end with the same
  division by a constant and the same maximum from −∞.

  On the extended reals `a − a = 0` holds for real `a` and fails at the infinities; the precondition says every
  input entry is finite, so both extra passes are sums of products with a zero factor and vanish (Spec.lean,
  KernelPay.lean). With that the kernel's block at point `b` is batch `b`'s sum, the thirty-two blocks tile the
  array (KernelValue.lean), and the reference's sum at batch `b` is the same sum after re-indexing the entries
  that reduce to `b` by their (row, column) pair (RefValue.lean). The common division and maximum are carried as
  one function of the thirty-two sums and never opened. Finite.lean reads "every entry is real" off the
  precondition.

  The three frames: the kernel's two programs by their generated frame runs, the reference's by its generated run
  with the result dropped. The idealization's two rewrites each removed a change of format there and back, which
  is the identity at the ideal values.
-/
import proofs.«177610_j1580547969507_2_alg».proof.Defs
import proofs.«177610_j1580547969507_2_alg».proof.Proof.Gen.Kernel
import proofs.«177610_j1580547969507_2_alg».proof.Proof.Gen.Kernel.Skeleton
import proofs.«177610_j1580547969507_2_alg».proof.Proof.Gen.Kernel.Launch
import proofs.«177610_j1580547969507_2_alg».proof.Proof.Gen.Kernel.Points
import proofs.«177610_j1580547969507_2_alg».proof.Proof.Gen.Kernel.Frame
import proofs.«177610_j1580547969507_2_alg».proof.Proof.Gen.KernelIdeal
import proofs.«177610_j1580547969507_2_alg».proof.Proof.Gen.KernelIdeal.Skeleton
import proofs.«177610_j1580547969507_2_alg».proof.Proof.Gen.KernelIdeal.Launch
import proofs.«177610_j1580547969507_2_alg».proof.Proof.Gen.KernelIdeal.Points
import proofs.«177610_j1580547969507_2_alg».proof.Proof.Gen.KernelIdeal.Frame
import proofs.«177610_j1580547969507_2_alg».proof.Proof.Gen.ReferenceIdeal
import proofs.«177610_j1580547969507_2_alg».proof.Proof.Gen.Pre_finite_inputs
import proofs.«177610_j1580547969507_2_alg».proof.Proof.Gen.ReferenceIdeal.Run
import proofs.«177610_j1580547969507_2_alg».proof.Proof.Gen.ReferenceIdeal.Read
import proofs.«177610_j1580547969507_2_alg».proof.Proof.Finite
import proofs.«177610_j1580547969507_2_alg».proof.Proof.KernelValue
import proofs.«177610_j1580547969507_2_alg».proof.Proof.RefValue
import Idealize.ShloMosaic.PureOps.IdealRules
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Rounding to the narrower format and widening back is the identity at the ideal values, at both sites. -/
theorem preserves : Cert.preserves_Kernel_KernelIdeal :=
  ⟨IdealRules.truncf_extf.statement _ .f32 .bf16, IdealRules.truncf_extf.statement _ .f32 .bf16⟩

section RefTail

open Cert.ReferenceIdeal Cert.ReferenceIdeal.Gen Cert.ReferenceIdeal.Read

/-- The reference's last two stages — the division by the constant and the maximum from −∞ — are the common tail,
    whatever the thirty-two numbers they are applied to. -/
theorem ref_tail (s : FVec Ideal Cert.ReferenceIdeal.S32 .f32) :
    Host.reduce FloatOps.maximumf (Host.divf s (val_main_v3 (F := Ideal))) (val_main_cst_1 (F := Ideal))
      reducesTo_S32_S_d0 h_S_ = Cert.KernelIdeal.KValue.tail s := rfl

/-- So the reference's result is the common tail of its thirty-two sums, which are the function of Spec.lean
    (RefValue.lean). -/
theorem ref_result (x : FVec Ideal Cert.ReferenceIdeal.S32x8192x64 .f32) (y : FVec Ideal Cert.ReferenceIdeal.S32x64x64 .f32) :
    val_main_v5 (F := Ideal) x y = Cert.KernelIdeal.KValue.tail (fun j => Cert.Spec.reluSum x y (j 0)) := by
  unfold val_main_v5 val_main_v4
  rw [show val_main_v2 (F := Ideal) x y = fun j => Cert.Spec.reluSum x y (j 0) from
    funext (Cert.ReferenceIdeal.RefValue.sums_apply x y)]
  exact ref_tail _

end RefTail

/-- From memories that agree on the two arguments, finite by the precondition, both programs end at the common tail of
    the same thirty-two sums. -/
theorem algebraic : Cert.algebraic_KernelIdeal_ReferenceIdeal := by
  intro m ρ m' ρ' hpre hagree
  have hfin := fun c => Cert.FiniteInputs.real_of_pre _ _ (hpre c)
  refine ⟨_, Cert.KernelIdeal.KValue.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, ref_result, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
